-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg6 : FVec F S16 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x64 .f32) (main_arg1 : IVec S1600000 32) (main_arg2 : IVec S1600000 32) (main_arg3 : FVec F S64x64 .f32) (main_arg4 : FVec F S64 .f32) (main_arg5 : FVec F S64x16 .f32) (main_arg6 : FVec F S16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg5
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg6 main_v13 main_v16
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩
abbrev S100000 : Shape := ⟨1, ![100000]⟩
abbrev S1600000x1 : Shape := ⟨2, ![1600000, 1]⟩
abbrev S1x64 : Shape := ⟨2, ![1, 64]⟩
abbrev S100000x1 : Shape := ⟨2, ![100000, 1]⟩
abbrev S10000x64 : Shape := ⟨2, ![10000, 64]⟩
abbrev S10000x1 : Shape := ⟨2, ![10000, 1]⟩
abbrev S1600000x64 : Shape := ⟨2, ![1600000, 64]⟩
abbrev S1x16 : Shape := ⟨2, ![1, 16]⟩
abbrev S100000x16 : Shape := ⟨2, ![100000, 16]⟩
abbrev S10000x16 : Shape := ⟨2, ![10000, 16]⟩
abbrev S1600000x16 : Shape := ⟨2, ![1600000, 16]⟩

abbrev nBuf : Space → Nat
  | .hbm => 49
  | .vmem => 16
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S64x16, .f32⟩
  | .hbm, ⟨6, _⟩ => ⟨S16, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S1x64, .f32⟩
  | .hbm, ⟨18, _⟩ => ⟨S100000x1, .f32⟩
  | .hbm, ⟨19, _⟩ => ⟨S100000x64, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x64, .f32⟩
  | .hbm, ⟨29, _⟩ => ⟨S_, .f32⟩
  | .hbm, ⟨30, _⟩ => ⟨S100000x64, .f32⟩
  | .hbm, ⟨31, _⟩ => ⟨S1600000x1, .i32⟩
  | .hbm, ⟨32, _⟩ => ⟨S100000x64, .f32⟩
  | .hbm, ⟨33, _⟩ => ⟨S1x16, .f32⟩
  | .hbm, ⟨34, _⟩ => ⟨S100000x1, .f32⟩
  | .hbm, ⟨35, _⟩ => ⟨S100000x16, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x16, .f32⟩
  | .hbm, ⟨45, _⟩ => ⟨S_, .f32⟩
  | .hbm, ⟨46, _⟩ => ⟨S100000x16, .f32⟩
  | .hbm, ⟨47, _⟩ => ⟨S1600000x1, .i32⟩
  | .hbm, ⟨48, _⟩ => ⟨S100000x16, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S10000x1, .f32⟩
  | .local _ .vmem, ⟨5, _⟩ => ⟨S10000x1, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S64x16, .f32⟩
  | .local _ .vmem, ⟨11, _⟩ => ⟨S1x16, .f32⟩
  | .local _ .vmem, ⟨12, _⟩ => ⟨S10000x1, .f32⟩
  | .local _ .vmem, ⟨13, _⟩ => ⟨S10000x1, .f32⟩
  | .local _ .vmem, ⟨14, _⟩ => ⟨S10000x16, .f32⟩
  | .local _ .vmem, ⟨15, _⟩ => ⟨S10000x16, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S10000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S10000x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S64_S1x64 : S64.ShapeCasts S1x64
  shapeCasts_S100000_S100000x1 : S100000.ShapeCasts S100000x1
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  bcast_S_S100000x64 : S_.BroadcastsInDim S100000x64 (![] : Fin 0 → Fin S100000x64.rank)
  shapeCasts_S16_S1x16 : S16.ShapeCasts S1x16
  shapeCasts_S10000x64_S10000x64 : S10000x64.ShapeCasts S10000x64
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  bcast_S_S100000x16 : S_.BroadcastsInDim S100000x16 (![] : Fin 0 → Fin S100000x16.rank)
  scatter_S100000_S1600000x1_S1600000_n_0_0_1_wf : ScatterDims.WF S100000 S1600000x1 S1600000 [] [0] [0] 1
  dot_S10000x64_S64x64_S10000x64_1_0_0_1_n_n_wf : DotDims.WF S10000x64 S64x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x16_S10000x16_1_0_0_1_n_n_wf : DotDims.WF S10000x64 S64x16 S10000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x1.size a ≤ S100000x1.size a
  hwx0_3 : ∀ i : grid0.Coords, EltTy.bits .f32 = 32 ∨ (Rect.block (s := S100000x1) S10000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x64.size a ≤ S100000x64.size a
  hwx0_4 : ∀ i : grid0.Coords, EltTy.bits .f32 = 32 ∨ (Rect.block (s := S100000x64) S10000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x16.size a ≤ S64x16.size a
  hwx1_1 : ∀ i : grid1.Coords, EltTy.bits .f32 = 32 ∨ (Rect.block (s := S64x16) S64x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x1.size a ≤ S100000x1.size a
  hwx1_3 : ∀ i : grid1.Coords, EltTy.bits .f32 = 32 ∨ (Rect.block (s := S100000x1) S10000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x16.size a ≤ S100000x16.size a
  hwx1_4 : ∀ i : grid1.Coords, EltTy.bits .f32 = 32 ∨ (Rect.block (s := S100000x16) S10000x16.size (cc1_transform_4 i) (hinb1_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S10000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S10000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v19) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S10000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v22) S10000x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩
abbrev S100000 : Shape := ⟨1, ![100000]⟩
abbrev S1600000x1 : Shape := ⟨2, ![1600000, 1]⟩
abbrev S1x64 : Shape := ⟨2, ![1, 64]⟩
abbrev S100000x1 : Shape := ⟨2, ![100000, 1]⟩
abbrev S1600000x64 : Shape := ⟨2, ![1600000, 64]⟩
abbrev S100000x16 : Shape := ⟨2, ![100000, 16]⟩
abbrev S1x16 : Shape := ⟨2, ![1, 16]⟩
abbrev S1600000x16 : Shape := ⟨2, ![1600000, 16]⟩

abbrev nBuf : Space → Nat
  | .hbm => 80
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S64x16, .f32⟩
  | .hbm, ⟨6, _⟩ => ⟨S16, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S100000x64, .f32⟩
  | .hbm, ⟨18, _⟩ => ⟨S1x64, .f32⟩
  | .hbm, ⟨19, _⟩ => ⟨S100000x64, .f32⟩
  | .hbm, ⟨20, _⟩ => ⟨S100000x64, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x64, .f32⟩
  | .hbm, ⟨27, _⟩ => ⟨S100000x64, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x64, .f32⟩
  | .hbm, ⟨37, _⟩ => ⟨S_, .f32⟩
  | .hbm, ⟨38, _⟩ => ⟨S100000x64, .f32⟩
  | .hbm, ⟨39, _⟩ => ⟨S1600000x1, .i32⟩
  | .hbm, ⟨40, _⟩ => ⟨S100000x64, .f32⟩
  | .hbm, ⟨41, _⟩ => ⟨S_, .f32⟩
  | .hbm, ⟨42, _⟩ => ⟨S100000, .f32⟩
  | .hbm, ⟨43, _⟩ => ⟨S100000, .f32⟩
  | .hbm, ⟨44, _⟩ => ⟨S100000, .f32⟩
  | .hbm, ⟨45, _⟩ => ⟨S100000x1, .f32⟩
  | .hbm, ⟨46, _⟩ => ⟨S100000x64, .f32⟩
  | .hbm, ⟨47, _⟩ => ⟨S100000x64, .f32⟩
  | .hbm, ⟨48, _⟩ => ⟨S_, .f32⟩
  | .hbm, ⟨49, _⟩ => ⟨S100000x64, .f32⟩
  | .hbm, ⟨50, _⟩ => ⟨S100000x64, .i1⟩
  | .hbm, ⟨51, _⟩ => ⟨S_, .f32⟩
  | .hbm, ⟨52, _⟩ => ⟨S100000x64, .f32⟩
  | .hbm, ⟨53, _⟩ => ⟨S100000x64, .f32⟩
  | .hbm, ⟨54, _⟩ => ⟨S100000x64, .f32⟩
  | .hbm, ⟨55, _⟩ => ⟨S100000x16, .f32⟩
  | .hbm, ⟨56, _⟩ => ⟨S1x16, .f32⟩
  | .hbm, ⟨57, _⟩ => ⟨S100000x16, .f32⟩
  | .hbm, ⟨58, _⟩ => ⟨S100000x16, .f32⟩
  | .hbm, ⟨59, _⟩ => ⟨S100000x16, .f32⟩
  | .hbm, ⟨60, _⟩ => ⟨S100000x16, .f32⟩
  | .hbm, ⟨61, _⟩ => ⟨S_, .f32⟩
  | .hbm, ⟨62, _⟩ => ⟨S100000x16, .f32⟩
  | .hbm, ⟨63, _⟩ => ⟨S100000x16, .f32⟩
  | .hbm, ⟨64, _⟩ => ⟨S_, .f32⟩
  | .hbm, ⟨65, _⟩ => ⟨S100000x16, .f32⟩
  | .hbm, ⟨66, _⟩ => ⟨S100000x16, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x16, .f32⟩
  | .hbm, ⟨76, _⟩ => ⟨S_, .f32⟩
  | .hbm, ⟨77, _⟩ => ⟨S100000x16, .f32⟩
  | .hbm, ⟨78, _⟩ => ⟨S1600000x1, .i32⟩
  | .hbm, ⟨79, _⟩ => ⟨S100000x16, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_c_10 : Ref sig .tc := ⟨.hbm, 67, rfl⟩
abbrev main_v48 : Ref sig .tc := ⟨.hbm, 68, rfl⟩
abbrev main_v49 : Ref sig .tc := ⟨.hbm, 69, rfl⟩
abbrev main_c_11 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_12 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x16_S100000x16_1_0_0_1_n_n_wf : DotDims.WF S100000x64 S64x16 S100000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf

class Facts : Prop extends Facts₀ where

variable [Facts]
-- ==== Proof.KernelRun.lean ====
/-
  The idealized kernel's whole run, with EVERY buffer read at the end.

  The program is five stretches: host operations, the first dense layer (a pipelined region over ten
  row blocks), host operations (a gather along the edges' senders and a scatter-add along their
  receivers), the second dense layer (again ten row blocks), and a last gather and scatter-add.  The
  buffer contents after each stretch are a fold from the launch memory; after the last stretch every
  unscoped buffer of a core holds the fold's final value.  The frame claim keeps only the argument
  arrays of that statement; here all of it is kept, so that the result array can be read as well.
-/
import proofs.«107942_j56882546868697_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and in the final state each
    unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The run with the result array named: it ends at the last boundary's contents of its buffer, and the
    seven argument arrays end as launched. -/
theorem run_result : θ_run defs (onTc (τ := τ) (main (F := F))) ⟨m, fun _ => 0, ρ⟩ (fun r => ∀ c : Dev nD,
      r.2.mem ((c.tc : Thread nD τ).loc main_v32) = W5 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun s h c =>
      ⟨h c _ (mem_uc main_v32 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)
    (run_all m ρ)

end Cert.KernelIdeal.Hand

end
-- ==== Proof.KernelHost.lean ====
/-
  The host operations of the idealized kernel's program, between and around its two dense layers.

  Four chains of host operations, each named as ONE function of the arrays it reads:
  * `degree x`: how often each node occurs in the edge list `x` (a scatter-add of ones into zeros);
  * `wrapIdx x`: the edge list with negative entries shifted up by the number of nodes, as a column;
  * `aggregate64 h s r`, `aggregate16 z s r`: gather the rows of a node array along the senders `s` and
    add them up along the receivers `r` (the message passing step), for 64 and for 16 features.
  Then the contents of the buffers the two dense layers and the result depend on, at each boundary of
  the program's five stretches, in terms of these chains, the argument arrays and the two layers'
  output arrays.
-/
import proofs.«107942_j56882546868697_1_alg».proof.Proof.KernelRun
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

/-- The number of edges at each node: ones scattered into zeros along the edge list. -/
def degree (x : (⟨S1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant S_ .f32 0x00000000#32))
    (broadcastInDim S1600000x1 ![0] bcast_S1600000_S1600000x1_0 x)
    (broadcastInDim S1600000 ![] bcast_S_S1600000 (constant S_ .f32 0x3F800000#32))

/-- The edge list as a column of row numbers, a negative entry counted from the end. -/
def wrapIdx (x : (⟨S1600000, .i32⟩ : BufTy).Contents (Elt F)) : (⟨S1600000x1, .i32⟩ : BufTy).Contents (Elt F) :=
  broadcastInDim S1600000x1 ![0] bcast_S1600000_S1600000x1_0
    (select (cmpi .slt x (broadcastInDim S1600000 ![] bcast_S_S1600000 (constantI S_ 32 0#32)))
      (addi x (broadcastInDim S1600000 ![] bcast_S_S1600000 (constantI S_ 32 100000#32))) x)

/-- Message passing on 64 features: rows gathered along the senders, added up along the receivers. -/
def aggregate64 (h : (⟨S100000x64, .f32⟩ : BufTy).Contents (Elt F)) (s r : (⟨S1600000, .i32⟩ : BufTy).Contents (Elt F)) :
    (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 r)
    (Host.gather gather_S100000x64_S1600000x1_S1600000x64_1_0_n_n_0_1_164 h (wrapIdx s))

/-- Message passing on 16 features. -/
def aggregate16 (z : (⟨S100000x16, .f32⟩ : BufTy).Contents (Elt F)) (s r : (⟨S1600000, .i32⟩ : BufTy).Contents (Elt F)) :
    (⟨S100000x16, .f32⟩ : BufTy).Contents (Elt F) :=
  Host.scatterAdd scatter_S100000x16_S1600000x1_S1600000x16_1_0_0_1
    (broadcastInDim S100000x16 ![] bcast_S_S100000x16 (constant S_ .f32 0x00000000#32))
    (broadcastInDim S1600000x1 ![0] bcast_S1600000_S1600000x1_0 r)
    (Host.gather gather_S100000x16_S1600000x1_S1600000x16_1_0_n_n_0_1_116 z (wrapIdx s))

variable (m : (ℓ : Loc nD τ sig) → Buf (Elt F) ℓ) (ρ : Dev nD → PrngReg)

/-! ## Before the first layer -/

theorem W1_arg0 (c : Dev nD) : W1 m ρ c (Proc.devRef .tc main_arg0) = m ((c.tc : Thread nD τ).loc main_arg0) := by
  show StableHlo.after hostOps0 (W0 m ρ c) (Proc.devRef .tc main_arg0) = _
  after_results
theorem W1_arg1 (c : Dev nD) : W1 m ρ c (Proc.devRef .tc main_arg1) = m ((c.tc : Thread nD τ).loc main_arg1) := by
  show StableHlo.after hostOps0 (W0 m ρ c) (Proc.devRef .tc main_arg1) = _
  after_results
theorem W1_arg2 (c : Dev nD) : W1 m ρ c (Proc.devRef .tc main_arg2) = m ((c.tc : Thread nD τ).loc main_arg2) := by
  show StableHlo.after hostOps0 (W0 m ρ c) (Proc.devRef .tc main_arg2) = _
  after_results
theorem W1_arg3 (c : Dev nD) : W1 m ρ c (Proc.devRef .tc main_arg3) = m ((c.tc : Thread nD τ).loc main_arg3) := by
  show StableHlo.after hostOps0 (W0 m ρ c) (Proc.devRef .tc main_arg3) = _
  after_results
theorem W1_arg5 (c : Dev nD) : W1 m ρ c (Proc.devRef .tc main_arg5) = m ((c.tc : Thread nD τ).loc main_arg5) := by
  show StableHlo.after hostOps0 (W0 m ρ c) (Proc.devRef .tc main_arg5) = _
  after_results
theorem W1_arg6 (c : Dev nD) : W1 m ρ c (Proc.devRef .tc main_arg6) = m ((c.tc : Thread nD τ).loc main_arg6) := by
  show StableHlo.after hostOps0 (W0 m ρ c) (Proc.devRef .tc main_arg6) = _
  after_results

/-- The first bias as a one-row matrix. -/
theorem W1_v7 (c : Dev nD) : W1 m ρ c (Proc.devRef .tc main_v7)
    = shapeCast S1x64 (m ((c.tc : Thread nD τ).loc main_arg4)) shapeCasts_S64_S1x64 := by
  show StableHlo.after hostOps0 (W0 m ρ c) (Proc.devRef .tc main_v7) = _
  after_results; rfl

/-- The senders' degrees as a column. -/
theorem W1_v8 (c : Dev nD) : W1 m ρ c (Proc.devRef .tc main_v8)
    = shapeCast S100000x1 (degree (m ((c.tc : Thread nD τ).loc main_arg1))) shapeCasts_S100000_S100000x1 := by
  show StableHlo.after hostOps0 (W0 m ρ c) (Proc.devRef .tc main_v8) = _
  after_results; rfl

/-- The receivers' degrees, computed before the first layer and read after it. -/
theorem W1_v6 (c : Dev nD) : W1 m ρ c (Proc.devRef .tc main_v6) = degree (m ((c.tc : Thread nD τ).loc main_arg2)) := by
  show StableHlo.after hostOps0 (W0 m ρ c) (Proc.devRef .tc main_v6) = _
  after_results; rfl

/-! ## Between the layers -/

/-- The first layer's output array. -/
theorem W2_v9 (c : Dev nD) : W2 m ρ c (Proc.devRef .tc main_v9) = (dat0 (V1 m ρ) c).arrAt 4 cfg0.N :=
  W2_arr m ρ c 4

theorem W2_arg1 (c : Dev nD) : W2 m ρ c (Proc.devRef .tc main_arg1) = m ((c.tc : Thread nD τ).loc main_arg1) :=
  (W2_of_ne m ρ c main_arg1 (by decide)).trans (W1_arg1 m ρ c)
theorem W2_arg2 (c : Dev nD) : W2 m ρ c (Proc.devRef .tc main_arg2) = m ((c.tc : Thread nD τ).loc main_arg2) :=
  (W2_of_ne m ρ c main_arg2 (by decide)).trans (W1_arg2 m ρ c)
theorem W2_arg5 (c : Dev nD) : W2 m ρ c (Proc.devRef .tc main_arg5) = m ((c.tc : Thread nD τ).loc main_arg5) :=
  (W2_of_ne m ρ c main_arg5 (by decide)).trans (W1_arg5 m ρ c)
theorem W2_arg6 (c : Dev nD) : W2 m ρ c (Proc.devRef .tc main_arg6) = m ((c.tc : Thread nD τ).loc main_arg6) :=
  (W2_of_ne m ρ c main_arg6 (by decide)).trans (W1_arg6 m ρ c)
theorem W2_v6 (c : Dev nD) : W2 m ρ c (Proc.devRef .tc main_v6) = degree (m ((c.tc : Thread nD τ).loc main_arg2)) :=
  (W2_of_ne m ρ c main_v6 (by decide)).trans (W1_v6 m ρ c)

/-- The second layer's first operand: the first layer's output passed along the edges. -/
theorem W3_v19 (c : Dev nD) : W3 m ρ c (Proc.devRef .tc main_v19)
    = aggregate64 ((dat0 (V1 m ρ) c).arrAt 4 cfg0.N) (m ((c.tc : Thread nD τ).loc main_arg1)) (m ((c.tc : Thread nD τ).loc main_arg2)) := by
  rw [← W2_v9, ← W2_arg1 m ρ c, ← W2_arg2 m ρ c]
  show StableHlo.after hostOps1 (W2 m ρ c) (Proc.devRef .tc main_v19) = _
  after_results; rfl

theorem W3_arg5 (c : Dev nD) : W3 m ρ c (Proc.devRef .tc main_arg5) = m ((c.tc : Thread nD τ).loc main_arg5) := by
  rw [← W2_arg5 m ρ c]
  show StableHlo.after hostOps1 (W2 m ρ c) (Proc.devRef .tc main_arg5) = _
  after_results
theorem W3_arg1 (c : Dev nD) : W3 m ρ c (Proc.devRef .tc main_arg1) = m ((c.tc : Thread nD τ).loc main_arg1) := by
  rw [← W2_arg1 m ρ c]
  show StableHlo.after hostOps1 (W2 m ρ c) (Proc.devRef .tc main_arg1) = _
  after_results
theorem W3_arg2 (c : Dev nD) : W3 m ρ c (Proc.devRef .tc main_arg2) = m ((c.tc : Thread nD τ).loc main_arg2) := by
  rw [← W2_arg2 m ρ c]
  show StableHlo.after hostOps1 (W2 m ρ c) (Proc.devRef .tc main_arg2) = _
  after_results

/-- The second bias as a one-row matrix. -/
theorem W3_v20 (c : Dev nD) : W3 m ρ c (Proc.devRef .tc main_v20)
    = shapeCast S1x16 (m ((c.tc : Thread nD τ).loc main_arg6)) shapeCasts_S16_S1x16 := by
  rw [← W2_arg6 m ρ c]
  show StableHlo.after hostOps1 (W2 m ρ c) (Proc.devRef .tc main_v20) = _
  after_results; rfl

/-- The receivers' degrees as a column. -/
theorem W3_v21 (c : Dev nD) : W3 m ρ c (Proc.devRef .tc main_v21)
    = shapeCast S100000x1 (degree (m ((c.tc : Thread nD τ).loc main_arg2))) shapeCasts_S100000_S100000x1 := by
  rw [← W2_v6 m ρ c]
  show StableHlo.after hostOps1 (W2 m ρ c) (Proc.devRef .tc main_v21) = _
  after_results; rfl

/-! ## After the second layer -/

theorem W4_v22 (c : Dev nD) : W4 m ρ c (Proc.devRef .tc main_v22) = (dat1 (V3 m ρ) c).arrAt 4 cfg1.N :=
  W4_arr m ρ c 4
theorem W4_arg1 (c : Dev nD) : W4 m ρ c (Proc.devRef .tc main_arg1) = m ((c.tc : Thread nD τ).loc main_arg1) :=
  (W4_of_ne m ρ c main_arg1 (by decide)).trans (W3_arg1 m ρ c)
theorem W4_arg2 (c : Dev nD) : W4 m ρ c (Proc.devRef .tc main_arg2) = m ((c.tc : Thread nD τ).loc main_arg2) :=
  (W4_of_ne m ρ c main_arg2 (by decide)).trans (W3_arg2 m ρ c)

/-- THE RESULT: the second layer's output passed along the edges. -/
theorem W5_v32 (c : Dev nD) : W5 m ρ c (Proc.devRef .tc main_v32)
    = aggregate16 ((dat1 (V3 m ρ) c).arrAt 4 cfg1.N) (m ((c.tc : Thread nD τ).loc main_arg1)) (m ((c.tc : Thread nD τ).loc main_arg2)) := by
  rw [← W4_v22, ← W4_arg1 m ρ c, ← W4_arg2 m ρ c]
  show StableHlo.after hostOps2 (W4 m ρ c) (Proc.devRef .tc main_v32) = _
  after_results; rfl

end Cert.KernelIdeal.Hand

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.LibColumn.lean ====
/-
  Column arrays.
  * A vector of length a made an [a, 1] matrix by a shape cast: entry (i, 0) is entry i of the vector.
  * An [a, 1] column repeated along b columns by a broadcast: entry (p, c) is the column's entry (p, 0).
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.Layers.lean ====
/-
  The two dense layers' bodies, one output entry at a time, at the ideal values.

  First layer, entry (p, q) of a row block: the row p of the nodes' block times the column q of the
  weights, plus the bias at q, times the reciprocal square root of the larger of the row's degree and 1.
  Second layer, entry (p, q): each entry of row p of the aggregate's block is scaled by the reciprocal
  square root of the larger of the row's degree and 1 and passed through the leaky rectifier; that row
  times the column q of the weights, plus the bias at q, through the logistic function.
  A change of float format is the identity here, and a product into a zero accumulator is the plain sum.
-/
import proofs.«107942_j56882546868697_1_alg».proof.Proof.Gen.KernelIdeal.Skeleton
import proofs.«107942_j56882546868697_1_alg».proof.Proof.LibPlainDot
import proofs.«107942_j56882546868697_1_alg».proof.Proof.LibColumn
import Idealize.ShloMosaic.Lib.ValueLayout
import Idealize.ShloMosaic.Lib.Pipeline.Value
import Idealize.ShloMosaic.PureOps.Ideal.Laws

noncomputable section

namespace Cert.Layers

open Idealize.ShloMosaic Idealize.ShloMosaic.ValueIdx

/-- One entry of the first dense layer: a row times a column, plus a bias, times the degree's scale. -/
def dense1At (xrow wcol : Fin 64 → EReal) (b deg : EReal) : EReal :=
  ((∑ k : Fin 64, xrow k * wcol k) + b) * Ideal.rsqrt (max deg (Ideal.ofBits .f32 0x3F800000#32))

/-- The leaky rectifier: y where y ≥ 0, the small slope times y elsewhere. -/
def leaky (y : EReal) : EReal :=
  Scalar.select (Ideal.cmp .oge y (Ideal.ofBits .f32 0x00000000#32)) y (Ideal.ofBits .f32 0x3C23D70A#32 * y)

/-- One entry of the second dense layer. -/
def dense2At (hrow wcol : Fin 64 → EReal) (b deg : EReal) : EReal :=
  Ideal.logistic ((∑ k : Fin 64, leaky (hrow k * Ideal.rsqrt (max deg (Ideal.ofBits .f32 0x3F800000#32))) * wcol k) + b)

end Cert.Layers

namespace Cert.KernelIdeal.Layers

open Cert.KernelIdeal Cert.KernelIdeal.Gen Cert.Layers
open Idealize.ShloMosaic Idealize.ShloMosaic.ValueIdx

/-- The first body's result at (p, q). -/
theorem pay1_apply (x0 : Vec Ideal S10000x64 .f32) (w : Vec Ideal S64x64 .f32) (b : Vec Ideal S1x64 .f32) (d : Vec Ideal S10000x1 .f32)
    (p : Fin 10000) (q : Fin 64) :
    k0_pay1 (F := Ideal) x0 w b d (ix2 p q)
      = dense1At (fun k => x0 (ix2 p k)) (fun k => w (ix2 k q)) (b (ix2 (0 : Fin 1) q)) (d (ix2 p (0 : Fin 1))) := by
  have e1 : matmul (F := Ideal) dot_S10000x64_S64x64_S10000x64_1_0_0_1_n_n none (truncf .bf16 x0 bitsLt_bf16_f32) (truncf .bf16 w bitsLt_bf16_f32)
      (constant S10000x64 .f32 0x00000000#32) (ix2 p q) = ∑ k : Fin 64, x0 (ix2 p k) * w (ix2 k q) :=
    Cert.LibPlainDot.matmul_plain 10000 64 64 none _ _ (ix2 p q)
  have e2 : broadcastTo S10000x64 (shapeCast S1x64 b shapeCasts_S1x64_S1x64) broadcasts_S1x64_S10000x64 (ix2 p q) = b (ix2 (0 : Fin 1) q) := by
    rw [broadcastTo_1b_ab_apply, shapeCast_self]
  have e3 : broadcastTo S10000x64 (rsqrt (maximumf (shapeCast S10000x1 d shapeCasts_S10000x1_S10000x1) (broadcast S10000x1 (Scalar.ofBits (F := Ideal) .f32 0x3F800000#32))))
      broadcasts_S10000x1_S10000x64 (ix2 p q) = Ideal.rsqrt (max (d (ix2 p (0 : Fin 1))) (Ideal.ofBits .f32 0x3F800000#32)) := by
    rw [Cert.LibColumn.broadcastTo_a1_ab_apply, shapeCast_self]; rfl
  exact congrArg₂ (· * ·) (congrArg₂ (· + ·) e1 e2) e3

/-- The second body's scaled aggregate: what it thresholds and multiplies. -/
def scaled (v0 : Vec Ideal S10000x64 .f32) (v2 : Vec Ideal S10000x1 .f32) : FVec Ideal S10000x64 .f32 :=
  mulf (shapeCast S10000x64 v0 shapeCasts_S10000x64_S10000x64)
    (broadcastTo S10000x64 (rsqrt (maximumf (shapeCast S10000x1 v2 shapeCasts_S10000x1_S10000x1) (broadcast S10000x1 (Scalar.ofBits (F := Ideal) .f32 0x3F800000#32))))
      broadcasts_S10000x1_S10000x64)

theorem scaled_apply (v0 : Vec Ideal S10000x64 .f32) (v2 : Vec Ideal S10000x1 .f32) (p : Fin 10000) (k : Fin 64) :
    scaled v0 v2 (ix2 p k) = v0 (ix2 p k) * Ideal.rsqrt (max (v2 (ix2 p (0 : Fin 1))) (Ideal.ofBits .f32 0x3F800000#32)) := by
  unfold scaled
  rw [mulf_apply, shapeCast_self, Cert.LibColumn.broadcastTo_a1_ab_apply, shapeCast_self]; rfl

/-- The second body's result at (p, q). -/
theorem pay2_apply (v0 : Vec Ideal S10000x64 .f32) (v2 : Vec Ideal S10000x1 .f32) (v15 : Vec Ideal S64x16 .f32) (v18 : Vec Ideal S1x16 .f32)
    (p : Fin 10000) (q : Fin 16) :
    k1_pay1 (F := Ideal) v0 v2 v15 v18 (ix2 p q)
      = dense2At (fun k => v0 (ix2 p k)) (fun k => v15 (ix2 k q)) (v18 (ix2 (0 : Fin 1) q)) (v2 (ix2 p (0 : Fin 1))) := by
  have e1 := Cert.LibPlainDot.matmul_plain 10000 64 16 none
    (truncf .bf16 (select (cmpf .oge (scaled v0 v2) (broadcast S10000x64 (Scalar.ofBits (F := Ideal) .f32 0x00000000#32))) (scaled v0 v2)
      (mulf (broadcast S10000x64 (Scalar.ofBits (F := Ideal) .f32 0x3C23D70A#32)) (scaled v0 v2))) bitsLt_bf16_f32)
    (truncf .bf16 v15 bitsLt_bf16_f32) (ix2 p q)
  have e2 : broadcastTo S10000x16 (shapeCast S1x16 v18 shapeCasts_S1x16_S1x16) broadcasts_S1x16_S10000x16 (ix2 p q) = v18 (ix2 (0 : Fin 1) q) := by
    rw [broadcastTo_1b_ab_apply, shapeCast_self]
  have e3 : ∀ k : Fin 64,
      Scalar.select (Ideal.cmp .oge (scaled v0 v2 (ix2 p k)) (Ideal.ofBits .f32 0x00000000#32)) (scaled v0 v2 (ix2 p k))
        (Ideal.ofBits .f32 0x3C23D70A#32 * scaled v0 v2 (ix2 p k))
      = leaky (v0 (ix2 p k) * Ideal.rsqrt (max (v2 (ix2 p (0 : Fin 1))) (Ideal.ofBits .f32 0x3F800000#32))) := fun k => by
    rw [scaled_apply]; rfl
  have e4 : (∑ k : Fin 64,
      Scalar.select (Ideal.cmp .oge (scaled v0 v2 (ix2 p k)) (Ideal.ofBits .f32 0x00000000#32)) (scaled v0 v2 (ix2 p k))
        (Ideal.ofBits .f32 0x3C23D70A#32 * scaled v0 v2 (ix2 p k)) * v15 (ix2 k q))
      = ∑ k : Fin 64, leaky (v0 (ix2 p k) * Ideal.rsqrt (max (v2 (ix2 p (0 : Fin 1))) (Ideal.ofBits .f32 0x3F800000#32))) * v15 (ix2 k q) :=
    Finset.sum_congr rfl fun k _ => by rw [e3 k]
  exact congrArg Ideal.logistic (congrArg₂ (· + ·) (e1.trans e4) e2)

end Cert.KernelIdeal.Layers

end
-- ==== Proof.Region0.lean ====
/-
  The first dense layer's output array, as ONE function of the arrays the region finds.

  The region walks ten row blocks of 10000 nodes.  At block t it reads rows 10000·t … 10000·t + 9999 of
  the nodes and of the degree column, the whole weight matrix and the whole bias row, and writes the same
  rows of the output.  So entry (r, j) of the output array depends on row r of the nodes, column j of the
  weights, the bias at j and the degree of node r, whichever block r lies in; and every row lies in the
  block r / 10000.
-/
import proofs.«107942_j56882546868697_1_alg».proof.Proof.Gen.KernelIdeal.Frame
import proofs.«107942_j56882546868697_1_alg».proof.Proof.Layers
import Idealize.ShloMosaic.Lib.Pipeline.Value

set_option maxRecDepth 16384

noncomputable section

namespace Cert.KernelIdeal.Region0

open Cert.KernelIdeal Cert.KernelIdeal.Gen Cert.Layers
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The first dense layer on whole arrays: nodes, weights, the bias as a row, the degrees as a column. -/
def layer1 (x : S100000x64.Idx → EReal) (w : S64x64.Idx → EReal) (b : S1x64.Idx → EReal) (d : S100000x1.Idx → EReal) :
    S100000x64.Idx → EReal :=
  fun i => dense1At (fun k => x (ix2 (i 0) k)) (fun k => w (ix2 k (i 1))) (b (ix2 (0 : Fin 1) (i 1))) (d (ix2 (i 0) (0 : Fin 1)))

/-- The printed index maps over the ten points: the row-blocked windows sit at block t, the others at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- WHAT POINT t WRITES BACK is block t of `layer1` of the arrays as the region finds them. -/
theorem flushed_eq (c : Dev nD) (t : Fin cfg0.N) :
    (dat0 V c).flushed 4 t
      = ((cfg0.win 4).blk t).view.read (Elt Ideal) (layer1 (V c main_arg0) (V c main_arg3) (V c main_v7) (V c main_v8)) := by
  show (cfg0.win 4).cut (grid0.coords t) ((dat0 V c).after 4 t) = _
  rw [after0_4]
  unfold out0_4
  rw [View.canon_unit_zero hz]
  simp only [View.ld_unit_zero (S := S10000x64) hz, View.ld_unit_zero (S := S64x64) hz, View.ld_unit_zero (S := S1x64) hz,
    View.ld_unit_zero (S := S10000x1) hz]
  obtain ⟨e00, e01, e10, e11, e20, e21, e30, e31, e40, e41⟩ := idx_facts t
  funext j
  obtain ⟨p, q, rfl⟩ : ∃ (p : Fin 10000) (q : Fin 64), j = ix2 p q := ⟨j 0, j 1, eq_ix2 j⟩
  refine (Cert.KernelIdeal.Layers.pay1_apply (iblk0 V c 0 t) (iblk0 V c 1 t) (iblk0 V c 2 t) (iblk0 V c 3 t) p q).trans ?_
  have hp : p.val < 10000 := p.isLt
  have hq : q.val < 64 := q.isLt
  have h0 : ∀ k : Fin 64, (iblk0 V c 0 t : S10000x64.Idx → EReal) (ix2 p k)
      = (V c main_arg0 : S100000x64.Idx → EReal) (ix2 ((((cfg0.win 4).blk t).view.emb (ix2 p q) : S100000x64.Idx) 0) k) := fun k => by
    show (V c main_arg0 : S100000x64.Idx → EReal) (((cfg0.win 0).blk t).view.emb (ix2 p k)) = _
    refine congrArg _ (funext fun a => Fin.ext ?_)
    match a with
    | ⟨0, _⟩ => show win0_0.index t (0 : Fin 2) * 10000 + 1 * p.val = win0_4.index t (0 : Fin 2) * 10000 + 1 * p.val; omega
    | ⟨1, _⟩ => show win0_0.index t (1 : Fin 2) * 64 + 1 * k.val = k.val; omega
  have h1 : ∀ k : Fin 64, (iblk0 V c 1 t : S64x64.Idx → EReal) (ix2 k q)
      = (V c main_arg3 : S64x64.Idx → EReal) (ix2 k ((((cfg0.win 4).blk t).view.emb (ix2 p q) : S100000x64.Idx) 1)) := fun k => by
    show (V c main_arg3 : S64x64.Idx → EReal) (((cfg0.win 1).blk t).view.emb (ix2 k q)) = _
    refine congrArg _ (funext fun a => Fin.ext ?_)
    match a with
    | ⟨0, _⟩ => show win0_1.index t (0 : Fin 2) * 64 + 1 * k.val = k.val; omega
    | ⟨1, _⟩ => show win0_1.index t (1 : Fin 2) * 64 + 1 * q.val = win0_4.index t (1 : Fin 2) * 64 + 1 * q.val; omega
  have h2 : (iblk0 V c 2 t : S1x64.Idx → EReal) (ix2 (0 : Fin 1) q)
      = (V c main_v7 : S1x64.Idx → EReal) (ix2 (0 : Fin 1) ((((cfg0.win 4).blk t).view.emb (ix2 p q) : S100000x64.Idx) 1)) := by
    show (V c main_v7 : S1x64.Idx → EReal) (((cfg0.win 2).blk t).view.emb (ix2 (0 : Fin 1) q)) = _
    refine congrArg _ (funext fun a => Fin.ext ?_)
    match a with
    | ⟨0, _⟩ => show win0_2.index t (0 : Fin 2) * 1 + 1 * 0 = 0; omega
    | ⟨1, _⟩ => show win0_2.index t (1 : Fin 2) * 64 + 1 * q.val = win0_4.index t (1 : Fin 2) * 64 + 1 * q.val; omega
  have h3 : (iblk0 V c 3 t : S10000x1.Idx → EReal) (ix2 p (0 : Fin 1))
      = (V c main_v8 : S100000x1.Idx → EReal) (ix2 ((((cfg0.win 4).blk t).view.emb (ix2 p q) : S100000x64.Idx) 0) (0 : Fin 1)) := by
    show (V c main_v8 : S100000x1.Idx → EReal) (((cfg0.win 3).blk t).view.emb (ix2 p (0 : Fin 1))) = _
    refine congrArg _ (funext fun a => Fin.ext ?_)
    match a with
    | ⟨0, _⟩ => show win0_3.index t (0 : Fin 2) * 10000 + 1 * p.val = win0_4.index t (0 : Fin 2) * 10000 + 1 * p.val; omega
    | ⟨1, _⟩ => show win0_3.index t (1 : Fin 2) * 1 + 1 * 0 = 0; omega
  show dense1At _ _ _ _ = layer1 (V c main_arg0) (V c main_arg3) (V c main_v7) (V c main_v8) (((cfg0.win 4).blk t).view.emb (ix2 p q))
  exact congr (congr (congr (congrArg dense1At (funext h0)) (funext h1)) h2) h3

/-- An index of the array is in point t's block iff each coordinate is in the block's range on its axis. -/
theorem mem_blk (t : Fin cfg0.N) (i : S100000x64.Idx) :
    i ∈ ((cfg0.win 4).blk t).view.set ↔ ∀ a : Fin 2, win0_4.index t a * S10000x64.size a ≤ (i a).val ∧ (i a).val < win0_4.index t a * S10000x64.size a + S10000x64.size a := by
  show i ∈ ((View.whole main_v9).slice (win0_4.rect t)).set ↔ _
  rw [View.set_slice_whole, Rect.mem_set_unit]
  exact Iff.rfl

/-- Every row lies in the block of its number divided by 10000. -/
theorem cover (i : S100000x64.Idx) : ∃ t : Fin cfg0.N, (cfg0.win 4).flush t = true ∧ i ∈ ((cfg0.win 4).blk t).view.set := by
  have hi0 : (i 0).val < 100000 := (i 0).isLt
  have hi1 : (i 1).val < 64 := (i 1).isLt
  have hN : grid0.N = 10 := N_0
  let t : Fin cfg0.N := ⟨(i 0).val / 10000, by show (i 0).val / 10000 < grid0.N; omega⟩
  refine ⟨t, flush0_4 t, ?_⟩
  obtain ⟨-, -, -, -, -, -, -, -, e40, e41⟩ := idx_facts t
  have ht : t.val = (i 0).val / 10000 := rfl
  rw [mem_blk]
  intro a
  match a with
  | ⟨0, _⟩ => show win0_4.index t (0 : Fin 2) * 10000 ≤ (i 0).val ∧ (i 0).val < win0_4.index t (0 : Fin 2) * 10000 + 10000; omega
  | ⟨1, _⟩ => show win0_4.index t (1 : Fin 2) * 64 ≤ (i 1).val ∧ (i 1).val < win0_4.index t (1 : Fin 2) * 64 + 64; omega

/-- THE ARRAY after the region: `layer1` of the arrays as the region finds them. -/
theorem final (c : Dev nD) :
    (dat0 V c).arrAt 4 cfg0.N = layer1 (V c main_arg0) (V c main_arg3) (V c main_v7) (V c main_v8) :=
  (dat0 V c).arrAt_eq_of_cover 4 _ (fun t _ => flushed_eq V c t) cover

end Cert.KernelIdeal.Region0

end
-- ==== Proof.Region1.lean ====
/-
  The second dense layer's output array, as ONE function of the arrays the region finds.

  As in the first layer the region walks ten row blocks of 10000 nodes: at block t it reads rows
  10000·t … 10000·t + 9999 of the aggregated features and of the degree column, the whole weight matrix
  and the whole bias row, and writes the same rows of the 16-feature output.  Entry (r, j) of the output
  depends on row r of the aggregate, the degree of node r, column j of the weights and the bias at j.
-/
import proofs.«107942_j56882546868697_1_alg».proof.Proof.Gen.KernelIdeal.Frame
import proofs.«107942_j56882546868697_1_alg».proof.Proof.Layers
import Idealize.ShloMosaic.Lib.Pipeline.Value

set_option maxRecDepth 16384

noncomputable section

namespace Cert.KernelIdeal.Region1

open Cert.KernelIdeal Cert.KernelIdeal.Gen Cert.Layers
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The second dense layer on whole arrays: the aggregate, weights, the bias as a row, the degrees as a column. -/
def layer2 (h : S100000x64.Idx → EReal) (w : S64x16.Idx → EReal) (b : S1x16.Idx → EReal) (d : S100000x1.Idx → EReal) :
    S100000x16.Idx → EReal :=
  fun i => dense2At (fun k => h (ix2 (i 0) k)) (fun k => w (ix2 k (i 1))) (b (ix2 (0 : Fin 1) (i 1))) (d (ix2 (i 0) (0 : Fin 1)))

/-- The printed index maps over the ten points: the row-blocked windows sit at block t, the others at block 0. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- WHAT POINT t WRITES BACK is block t of `layer2` of the arrays as the region finds them. -/
theorem flushed_eq (c : Dev nD) (t : Fin cfg1.N) :
    (dat1 V c).flushed 4 t
      = ((cfg1.win 4).blk t).view.read (Elt Ideal) (layer2 (V c main_v19) (V c main_arg5) (V c main_v20) (V c main_v21)) := by
  show (cfg1.win 4).cut (grid1.coords t) ((dat1 V c).after 4 t) = _
  rw [after1_4]
  unfold out1_4
  rw [View.canon_unit_zero hz]
  simp only [View.ld_unit_zero (S := S10000x64) hz, View.ld_unit_zero (S := S64x16) hz, View.ld_unit_zero (S := S1x16) hz,
    View.ld_unit_zero (S := S10000x1) hz]
  obtain ⟨e00, e01, e10, e11, e20, e21, e30, e31, e40, e41⟩ := idx_facts t
  funext j
  obtain ⟨p, q, rfl⟩ : ∃ (p : Fin 10000) (q : Fin 16), j = ix2 p q := ⟨j 0, j 1, eq_ix2 j⟩
  refine (Cert.KernelIdeal.Layers.pay2_apply (iblk1 V c 0 t) (iblk1 V c 3 t) (iblk1 V c 1 t) (iblk1 V c 2 t) p q).trans ?_
  have hp : p.val < 10000 := p.isLt
  have hq : q.val < 16 := q.isLt
  have h0 : ∀ k : Fin 64, (iblk1 V c 0 t : S10000x64.Idx → EReal) (ix2 p k)
      = (V c main_v19 : S100000x64.Idx → EReal) (ix2 ((((cfg1.win 4).blk t).view.emb (ix2 p q) : S100000x16.Idx) 0) k) := fun k => by
    show (V c main_v19 : S100000x64.Idx → EReal) (((cfg1.win 0).blk t).view.emb (ix2 p k)) = _
    refine congrArg _ (funext fun a => Fin.ext ?_)
    match a with
    | ⟨0, _⟩ => show win1_0.index t (0 : Fin 2) * 10000 + 1 * p.val = win1_4.index t (0 : Fin 2) * 10000 + 1 * p.val; omega
    | ⟨1, _⟩ => show win1_0.index t (1 : Fin 2) * 64 + 1 * k.val = k.val; omega
  have h1 : ∀ k : Fin 64, (iblk1 V c 1 t : S64x16.Idx → EReal) (ix2 k q)
      = (V c main_arg5 : S64x16.Idx → EReal) (ix2 k ((((cfg1.win 4).blk t).view.emb (ix2 p q) : S100000x16.Idx) 1)) := fun k => by
    show (V c main_arg5 : S64x16.Idx → EReal) (((cfg1.win 1).blk t).view.emb (ix2 k q)) = _
    refine congrArg _ (funext fun a => Fin.ext ?_)
    match a with
    | ⟨0, _⟩ => show win1_1.index t (0 : Fin 2) * 64 + 1 * k.val = k.val; omega
    | ⟨1, _⟩ => show win1_1.index t (1 : Fin 2) * 16 + 1 * q.val = win1_4.index t (1 : Fin 2) * 16 + 1 * q.val; omega
  have h2 : (iblk1 V c 2 t : S1x16.Idx → EReal) (ix2 (0 : Fin 1) q)
      = (V c main_v20 : S1x16.Idx → EReal) (ix2 (0 : Fin 1) ((((cfg1.win 4).blk t).view.emb (ix2 p q) : S100000x16.Idx) 1)) := by
    show (V c main_v20 : S1x16.Idx → EReal) (((cfg1.win 2).blk t).view.emb (ix2 (0 : Fin 1) q)) = _
    refine congrArg _ (funext fun a => Fin.ext ?_)
    match a with
    | ⟨0, _⟩ => show win1_2.index t (0 : Fin 2) * 1 + 1 * 0 = 0; omega
    | ⟨1, _⟩ => show win1_2.index t (1 : Fin 2) * 16 + 1 * q.val = win1_4.index t (1 : Fin 2) * 16 + 1 * q.val; omega
  have h3 : (iblk1 V c 3 t : S10000x1.Idx → EReal) (ix2 p (0 : Fin 1))
      = (V c main_v21 : S100000x1.Idx → EReal) (ix2 ((((cfg1.win 4).blk t).view.emb (ix2 p q) : S100000x16.Idx) 0) (0 : Fin 1)) := by
    show (V c main_v21 : S100000x1.Idx → EReal) (((cfg1.win 3).blk t).view.emb (ix2 p (0 : Fin 1))) = _
    refine congrArg _ (funext fun a => Fin.ext ?_)
    match a with
    | ⟨0, _⟩ => show win1_3.index t (0 : Fin 2) * 10000 + 1 * p.val = win1_4.index t (0 : Fin 2) * 10000 + 1 * p.val; omega
    | ⟨1, _⟩ => show win1_3.index t (1 : Fin 2) * 1 + 1 * 0 = 0; omega
  show dense2At _ _ _ _ = layer2 (V c main_v19) (V c main_arg5) (V c main_v20) (V c main_v21) (((cfg1.win 4).blk t).view.emb (ix2 p q))
  exact congr (congr (congr (congrArg dense2At (funext h0)) (funext h1)) h2) h3

/-- An index of the array is in point t's block iff each coordinate is in the block's range on its axis. -/
theorem mem_blk (t : Fin cfg1.N) (i : S100000x16.Idx) :
    i ∈ ((cfg1.win 4).blk t).view.set ↔ ∀ a : Fin 2, win1_4.index t a * S10000x16.size a ≤ (i a).val ∧ (i a).val < win1_4.index t a * S10000x16.size a + S10000x16.size a := by
  show i ∈ ((View.whole main_v22).slice (win1_4.rect t)).set ↔ _
  rw [View.set_slice_whole, Rect.mem_set_unit]
  exact Iff.rfl

/-- Every row lies in the block of its number divided by 10000. -/
theorem cover (i : S100000x16.Idx) : ∃ t : Fin cfg1.N, (cfg1.win 4).flush t = true ∧ i ∈ ((cfg1.win 4).blk t).view.set := by
  have hi0 : (i 0).val < 100000 := (i 0).isLt
  have hi1 : (i 1).val < 16 := (i 1).isLt
  have hN : grid1.N = 10 := N_1
  let t : Fin cfg1.N := ⟨(i 0).val / 10000, by show (i 0).val / 10000 < grid1.N; omega⟩
  refine ⟨t, flush1_4 t, ?_⟩
  obtain ⟨-, -, -, -, -, -, -, -, e40, e41⟩ := idx_facts t
  have ht : t.val = (i 0).val / 10000 := rfl
  rw [mem_blk]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 16 ≤ (i 1).val ∧ (i 1).val < win1_4.index t (1 : Fin 2) * 16 + 16; omega

/-- THE ARRAY after the region: `layer2` of the arrays as the region finds them. -/
theorem final (c : Dev nD) :
    (dat1 V c).arrAt 4 cfg1.N = layer2 (V c main_v19) (V c main_arg5) (V c main_v20) (V c main_v21) :=
  (dat1 V c).arrAt_eq_of_cover 4 _ (fun t _ => flushed_eq V c t) cover

end Cert.KernelIdeal.Region1

end
-- ==== Proof.KernelValue.lean ====
/-
  The idealized kernel's result array as ONE function of the seven argument arrays.

  Reading the program's five stretches in order: the degrees of the senders and of the receivers are
  counted; the first dense layer runs on the nodes with the senders' degrees; its output is passed along
  the edges; the second dense layer runs on that aggregate with the receivers' degrees; its output is
  passed along the edges again.  Each region's output array is the whole-array function of what the
  region finds in its operands' buffers, and what it finds there is what the host operations before it
  computed.
-/
import proofs.«107942_j56882546868697_1_alg».proof.Proof.KernelHost
import proofs.«107942_j56882546868697_1_alg».proof.Proof.Region0
import proofs.«107942_j56882546868697_1_alg».proof.Proof.Region1

set_option maxRecDepth 16384

noncomputable section

namespace Cert.KernelIdeal.Result

open Cert.KernelIdeal Cert.KernelIdeal.Gen Cert.KernelIdeal.Hand
open Idealize.ShloMosaic Idealize.ShloMosaic.TcCoe Idealize.SL.Sem

/-- The kernel's result as a function of the nodes, the senders, the receivers, the two weight matrices and
    the two biases. -/
def kernelResult (x0 : (⟨S100000x64, .f32⟩ : BufTy).Contents (Elt Ideal)) (x1 x2 : (⟨S1600000, .i32⟩ : BufTy).Contents (Elt Ideal))
    (x3 : (⟨S64x64, .f32⟩ : BufTy).Contents (Elt Ideal)) (x4 : (⟨S64, .f32⟩ : BufTy).Contents (Elt Ideal))
    (x5 : (⟨S64x16, .f32⟩ : BufTy).Contents (Elt Ideal)) (x6 : (⟨S16, .f32⟩ : BufTy).Contents (Elt Ideal)) :
    (⟨S100000x16, .f32⟩ : BufTy).Contents (Elt Ideal) :=
  aggregate16 (F := Ideal)
    (Region1.layer2
      (aggregate64 (F := Ideal)
        (Region0.layer1 x0 x3 (shapeCast S1x64 x4 shapeCasts_S64_S1x64)
          (shapeCast S100000x1 (degree (F := Ideal) x1) shapeCasts_S100000_S100000x1))
        x1 x2)
      x5 (shapeCast S1x16 x6 shapeCasts_S16_S1x16)
      (shapeCast S100000x1 (degree (F := Ideal) x2) shapeCasts_S100000_S100000x1))
    x1 x2

variable (m : (ℓ : Loc nD τ sig) → Buf (Elt Ideal) ℓ) (ρ : Dev nD → PrngReg)

/-- The first layer's output array, of the arguments. -/
theorem hidden (c : Dev nD) : (dat0 (V1 m ρ) c).arrAt 4 cfg0.N
    = Region0.layer1 (m ((c.tc : Thread nD τ).loc main_arg0)) (m ((c.tc : Thread nD τ).loc main_arg3))
        (shapeCast S1x64 (m ((c.tc : Thread nD τ).loc main_arg4)) shapeCasts_S64_S1x64)
        (shapeCast S100000x1 (degree (F := Ideal) (m ((c.tc : Thread nD τ).loc main_arg1))) shapeCasts_S100000_S100000x1) := by
  rw [Region0.final (V1 m ρ) c]
  show Region0.layer1 (W1 m ρ c (Proc.devRef .tc main_arg0)) (W1 m ρ c (Proc.devRef .tc main_arg3))
    (W1 m ρ c (Proc.devRef .tc main_v7)) (W1 m ρ c (Proc.devRef .tc main_v8)) = _
  rw [W1_arg0 m ρ c, W1_arg3 m ρ c, W1_v7 m ρ c, W1_v8 m ρ c]

/-- The second layer's output array, of the arguments. -/
theorem logits (c : Dev nD) : (dat1 (V3 m ρ) c).arrAt 4 cfg1.N
    = Region1.layer2
        (aggregate64 (F := Ideal)
          (Region0.layer1 (m ((c.tc : Thread nD τ).loc main_arg0)) (m ((c.tc : Thread nD τ).loc main_arg3))
            (shapeCast S1x64 (m ((c.tc : Thread nD τ).loc main_arg4)) shapeCasts_S64_S1x64)
            (shapeCast S100000x1 (degree (F := Ideal) (m ((c.tc : Thread nD τ).loc main_arg1))) shapeCasts_S100000_S100000x1))
          (m ((c.tc : Thread nD τ).loc main_arg1)) (m ((c.tc : Thread nD τ).loc main_arg2)))
        (m ((c.tc : Thread nD τ).loc main_arg5))
        (shapeCast S1x16 (m ((c.tc : Thread nD τ).loc main_arg6)) shapeCasts_S16_S1x16)
        (shapeCast S100000x1 (degree (F := Ideal) (m ((c.tc : Thread nD τ).loc main_arg2))) shapeCasts_S100000_S100000x1) := by
  rw [Region1.final (V3 m ρ) c]
  show Region1.layer2 (W3 m ρ c (Proc.devRef .tc main_v19)) (W3 m ρ c (Proc.devRef .tc main_arg5))
    (W3 m ρ c (Proc.devRef .tc main_v20)) (W3 m ρ c (Proc.devRef .tc main_v21)) = _
  rw [W3_v19 m ρ c, W3_arg5 m ρ c, W3_v20 m ρ c, W3_v21 m ρ c, hidden m ρ c]

/-- THE RESULT BUFFER at the end of the program. -/
theorem result (c : Dev nD) : W5 m ρ c (Proc.devRef .tc main_v32)
    = kernelResult (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) := by
  rw [W5_v32 m ρ c, logits m ρ c]
  rfl

/-- The run, read: the result array at `kernelResult` of the arguments, the arguments unchanged. -/
theorem run : θ_run defs (onTc (τ := τ) (main (F := Ideal))) ⟨m, fun _ => 0, ρ⟩ (fun r => ∀ c : Dev nD,
      r.2.mem ((c.tc : Thread nD τ).loc main_v32)
        = kernelResult (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result m ρ c), (h c).2⟩) (run_result m ρ)

end Cert.KernelIdeal.Result

end
-- ==== Proof.RefValue.lean ====
/-
  The reference, stage by stage: its result is the 16-feature message passing of the second dense layer
  of the 64-feature message passing of the first dense layer.

  The reference's two dense layers are written with host operations on whole arrays: a matrix product,
  the bias broadcast over the rows, the degrees' scale broadcast over the columns, the leaky rectifier
  as a comparison and a selection, and the logistic function as 1 / (1 + e^(-y)).  Read at an index each
  is the same entry function as the kernel's bodies compute (`dense1At`, `dense2At`): the logistic
  function IS that quotient on the extended reals, once the word 0x3F800000 is read as the number 1.
-/
import proofs.«107942_j56882546868697_1_alg».proof.Proof.Gen.ReferenceIdeal.Read
import proofs.«107942_j56882546868697_1_alg».proof.Proof.Layers
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Cert.Layers
open Idealize.ShloMosaic Idealize.ShloMosaic.ValueIdx

variable {F : FTy → Type} [FloatOps F]

/-! ## The shared host chains, in the reference's vocabulary -/

/-- The number of edges at each node: ones scattered into zeros along the edge list. -/
def degree (x : (⟨S1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant S_ .f32 0x00000000#32))
    (broadcastInDim S1600000x1 ![0] bcast_S1600000_S1600000x1_0 x)
    (broadcastInDim S1600000 ![] bcast_S_S1600000 (constant S_ .f32 0x3F800000#32))

/-- The edge list as a column of row numbers, a negative entry counted from the end. -/
def wrapIdx (x : (⟨S1600000, .i32⟩ : BufTy).Contents (Elt F)) : (⟨S1600000x1, .i32⟩ : BufTy).Contents (Elt F) :=
  broadcastInDim S1600000x1 ![0] bcast_S1600000_S1600000x1_0
    (select (cmpi .slt x (broadcastInDim S1600000 ![] bcast_S_S1600000 (constantI S_ 32 0#32)))
      (addi x (broadcastInDim S1600000 ![] bcast_S_S1600000 (constantI S_ 32 100000#32))) x)

/-- Message passing on 64 features: rows gathered along the senders, added up along the receivers. -/
def aggregate64 (h : (⟨S100000x64, .f32⟩ : BufTy).Contents (Elt F)) (s r : (⟨S1600000, .i32⟩ : BufTy).Contents (Elt F)) :
    (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 r)
    (Host.gather gather_S100000x64_S1600000x1_S1600000x64_1_0_n_n_0_1_164 h (wrapIdx s))

/-- Message passing on 16 features. -/
def aggregate16 (z : (⟨S100000x16, .f32⟩ : BufTy).Contents (Elt F)) (s r : (⟨S1600000, .i32⟩ : BufTy).Contents (Elt F)) :
    (⟨S100000x16, .f32⟩ : BufTy).Contents (Elt F) :=
  Host.scatterAdd scatter_S100000x16_S1600000x1_S1600000x16_1_0_0_1
    (broadcastInDim S100000x16 ![] bcast_S_S100000x16 (constant S_ .f32 0x00000000#32))
    (broadcastInDim S1600000x1 ![0] bcast_S1600000_S1600000x1_0 r)
    (Host.gather gather_S100000x16_S1600000x1_S1600000x16_1_0_n_n_0_1_116 z (wrapIdx s))

theorem v3_eq (x1 : (⟨S1600000, .i32⟩ : BufTy).Contents (Elt F)) : val_main_v3 (F := F) x1 = degree x1 := rfl
theorem v6_eq (x2 : (⟨S1600000, .i32⟩ : BufTy).Contents (Elt F)) : val_main_v6 (F := F) x2 = degree x2 := rfl

theorem v26_eq (x0 : (⟨S100000x64, .f32⟩ : BufTy).Contents (Elt F)) (x1 x2 : (⟨S1600000, .i32⟩ : BufTy).Contents (Elt F))
    (x3 : (⟨S64x64, .f32⟩ : BufTy).Contents (Elt F)) (x4 : (⟨S64, .f32⟩ : BufTy).Contents (Elt F)) :
    val_main_v26 (F := F) x0 x1 x2 x3 x4 = aggregate64 (val_main_v16 (F := F) x0 x1 x3 x4) x1 x2 := rfl

theorem v57_eq (x0 : (⟨S100000x64, .f32⟩ : BufTy).Contents (Elt F)) (x1 x2 : (⟨S1600000, .i32⟩ : BufTy).Contents (Elt F))
    (x3 : (⟨S64x64, .f32⟩ : BufTy).Contents (Elt F)) (x4 : (⟨S64, .f32⟩ : BufTy).Contents (Elt F))
    (x5 : (⟨S64x16, .f32⟩ : BufTy).Contents (Elt F)) (x6 : (⟨S16, .f32⟩ : BufTy).Contents (Elt F)) :
    val_main_v57 (F := F) x0 x1 x2 x3 x4 x5 x6 = aggregate16 (val_main_v47 (F := F) x0 x1 x2 x3 x4 x5 x6) x1 x2 := rfl

/-! ## The two dense layers on whole arrays, the bias and the degrees as vectors -/

/-- The first dense layer. -/
def layer1 (x : S100000x64.Idx → EReal) (w : S64x64.Idx → EReal) (b : S64.Idx → EReal) (deg : S100000.Idx → EReal) :
    S100000x64.Idx → EReal :=
  fun i => dense1At (fun k => x (ix2 (i 0) k)) (fun k => w (ix2 k (i 1))) (b (ix1 (i 1))) (deg (ix1 (i 0)))

/-- The second dense layer. -/
def layer2 (h : S100000x64.Idx → EReal) (w : S64x16.Idx → EReal) (b : S16.Idx → EReal) (deg : S100000.Idx → EReal) :
    S100000x16.Idx → EReal :=
  fun i => dense2At (fun k => h (ix2 (i 0) k)) (fun k => w (ix2 k (i 1))) (b (ix1 (i 1))) (deg (ix1 (i 0)))

/-- The word 0x3F800000 is the number 1. -/
theorem ofBits_one : Ideal.ofBits .f32 0x3F800000#32 = 1 := by
  simp [Ideal.ofBits, Ideal.ieee, -EReal.coe_mul]; norm_num

/-- The reference's first layer, index by index. -/
theorem v16_eq (x0 : (⟨S100000x64, .f32⟩ : BufTy).Contents (Elt Ideal)) (x1 : (⟨S1600000, .i32⟩ : BufTy).Contents (Elt Ideal))
    (x3 : (⟨S64x64, .f32⟩ : BufTy).Contents (Elt Ideal)) (x4 : (⟨S64, .f32⟩ : BufTy).Contents (Elt Ideal)) :
    val_main_v16 (F := Ideal) x0 x1 x3 x4 = layer1 x0 x3 x4 (degree (F := Ideal) x1) := by
  funext i
  obtain ⟨r, j, rfl⟩ : ∃ (r : Fin 100000) (j : Fin 64), i = ix2 r j := ⟨i 0, i 1, eq_ix2 i⟩
  have hl : ∀ k : Fin 64, lidx_main_v7 (ix2 r j) k = ix2 r k := fun k => funext fun a => Fin.ext (by
    match a with | ⟨0, _⟩ => rfl | ⟨1, _⟩ => rfl)
  have hr : ∀ k : Fin 64, ridx_main_v7 (ix2 r j) k = ix2 k j := fun k => funext fun a => Fin.ext (by
    match a with | ⟨0, _⟩ => rfl | ⟨1, _⟩ => rfl)
  have hb : idx_main_v8 (idx_main_v9 (ix2 r j)) = ix1 j := funext fun a => Fin.ext (by
    match a with | ⟨0, _⟩ => rfl)
  have hd : idx_main_v14 (idx_main_v15 (ix2 r j)) = ix1 r := funext fun a => Fin.ext (by
    match a with | ⟨0, _⟩ => rfl)
  rw [val_main_v16_apply, val_main_v10_apply, val_main_v7_apply, val_main_v9_apply, val_main_v8_apply, val_main_v15_apply,
    val_main_v14_apply, val_main_v13_apply, val_main_v12_apply, val_main_v11_apply, val_main_cst_2_apply, v3_eq]
  simp only [hl, hr, hb, hd, Ideal.mulf_def, Ideal.addf_def, Ideal.maximumf_def, Ideal.hostUnary_rsqrt_def, Ideal.ofBits_def]
  show _ = dense1At (fun k => x0 (ix2 r k)) (fun k => x3 (ix2 k j)) (x4 (ix1 j)) (degree (F := Ideal) x1 (ix1 r))
  unfold dense1At
  rfl

/-- The logistic function as the reference spells it: 1 / (1 + e^(-y)), the ones as the word 0x3F800000. -/
theorem logistic_spelt (y : EReal) :
    FloatOps.hostDivf (F := Ideal) (φ := .f32) (FloatOps.ofBits .f32 0x3F800000#32)
      (FloatOps.addf (FloatOps.ofBits .f32 0x3F800000#32) (FloatOps.hostUnary .exp (FloatOps.hostNegf y)))
      = Ideal.logistic y := by
  show Ideal.div (Ideal.ofBits .f32 0x3F800000#32) (Ideal.ofBits .f32 0x3F800000#32 + Ideal.exp (-y)) = Ideal.div 1 (1 + Ideal.exp (-y))
  rw [ofBits_one]

/-- The leaky rectifier as the reference spells it: a comparison with zero and a selection. -/
theorem leaky_spelt (y : EReal) :
    Scalar.select (FloatOps.cmpf (F := Ideal) (φ := .f32) .oge y (FloatOps.ofBits .f32 0x00000000#32)) y
      (FloatOps.mulf (F := Ideal) (φ := .f32) (FloatOps.ofBits .f32 0x3C23D70A#32) y) = leaky y := rfl

/-- The degrees' scale as the reference spells it. -/
theorem scale_spelt (a d : EReal) :
    FloatOps.mulf (F := Ideal) (φ := .f32) a (FloatOps.hostUnary .rsqrt (FloatOps.maximumf d (FloatOps.ofBits .f32 0x3F800000#32)))
      = a * Ideal.rsqrt (max d (Ideal.ofBits .f32 0x3F800000#32)) := rfl

section Second
variable (x0 : (⟨S100000x64, .f32⟩ : BufTy).Contents (Elt Ideal)) (x1 x2 : (⟨S1600000, .i32⟩ : BufTy).Contents (Elt Ideal))
  (x3 : (⟨S64x64, .f32⟩ : BufTy).Contents (Elt Ideal)) (x4 : (⟨S64, .f32⟩ : BufTy).Contents (Elt Ideal))
  (x5 : (⟨S64x16, .f32⟩ : BufTy).Contents (Elt Ideal)) (x6 : (⟨S16, .f32⟩ : BufTy).Contents (Elt Ideal))

/-- The aggregate scaled by the receivers' degrees, at an entry. -/
theorem v32_at (r : Fin 100000) (k : Fin 64) :
    val_main_v32 (F := Ideal) x0 x1 x2 x3 x4 (ix2 r k)
      = val_main_v26 (F := Ideal) x0 x1 x2 x3 x4 (ix2 r k) * Ideal.rsqrt (max (degree (F := Ideal) x2 (ix1 r)) (Ideal.ofBits .f32 0x3F800000#32)) := by
  have hd : idx_main_v30 (idx_main_v31 (ix2 r k)) = ix1 r := funext fun a => Fin.ext (by
    match a with | ⟨0, _⟩ => rfl)
  rw [val_main_v32_apply, val_main_v31_apply, val_main_v30_apply, val_main_v29_apply, val_main_v28_apply, val_main_v27_apply,
    val_main_cst_5_apply, hd, v6_eq]
  generalize val_main_v26 (F := Ideal) x0 x1 x2 x3 x4 (ix2 r k) = a
  generalize degree (F := Ideal) x2 (ix1 r) = d
  exact scale_spelt a d

/-- The rectified entry. -/
theorem v37_at (r : Fin 100000) (k : Fin 64) :
    val_main_v37 (F := Ideal) x0 x1 x2 x3 x4 (ix2 r k)
      = leaky (val_main_v26 (F := Ideal) x0 x1 x2 x3 x4 (ix2 r k) * Ideal.rsqrt (max (degree (F := Ideal) x2 (ix1 r)) (Ideal.ofBits .f32 0x3F800000#32))) := by
  rw [val_main_v37_apply, val_main_v34_apply, val_main_v36_apply, val_main_v35_apply, val_main_cst_7_apply, val_main_v33_apply,
    val_main_cst_6_apply, v32_at]
  generalize val_main_v26 (F := Ideal) x0 x1 x2 x3 x4 (ix2 r k) * Ideal.rsqrt (max (degree (F := Ideal) x2 (ix1 r)) (Ideal.ofBits .f32 0x3F800000#32)) = y
  exact leaky_spelt y

/-- The entry before the logistic function: the rectified row times the weights' column, plus the bias. -/
theorem v41_at (r : Fin 100000) (j : Fin 16) :
    val_main_v41 (F := Ideal) x0 x1 x2 x3 x4 x5 x6 (ix2 r j)
      = (∑ k : Fin 64, leaky (val_main_v26 (F := Ideal) x0 x1 x2 x3 x4 (ix2 r k) * Ideal.rsqrt (max (degree (F := Ideal) x2 (ix1 r)) (Ideal.ofBits .f32 0x3F800000#32))) * x5 (ix2 k j))
        + x6 (ix1 j) := by
  have hl : ∀ k : Fin 64, lidx_main_v38 (ix2 r j) k = ix2 r k := fun k => funext fun a => Fin.ext (by
    match a with | ⟨0, _⟩ => rfl | ⟨1, _⟩ => rfl)
  have hr : ∀ k : Fin 64, ridx_main_v38 (ix2 r j) k = ix2 k j := fun k => funext fun a => Fin.ext (by
    match a with | ⟨0, _⟩ => rfl | ⟨1, _⟩ => rfl)
  have hb : idx_main_v39 (idx_main_v40 (ix2 r j)) = ix1 j := funext fun a => Fin.ext (by
    match a with | ⟨0, _⟩ => rfl)
  rw [val_main_v41_apply, val_main_v38_apply, val_main_v40_apply, val_main_v39_apply, hb]
  refine congrArg (· + x6 (ix1 j)) (Finset.sum_congr rfl fun k _ => ?_)
  rw [hl k, hr k, v37_at]

/-- The reference's second layer, index by index, over whatever the first message passing left. -/
theorem v47_eq : val_main_v47 (F := Ideal) x0 x1 x2 x3 x4 x5 x6
      = layer2 (val_main_v26 (F := Ideal) x0 x1 x2 x3 x4) x5 x6 (degree (F := Ideal) x2) := by
  funext i
  obtain ⟨r, j, rfl⟩ : ∃ (r : Fin 100000) (j : Fin 16), i = ix2 r j := ⟨i 0, i 1, eq_ix2 i⟩
  rw [val_main_v47_apply, val_main_v46_apply, val_main_cst_9_apply, val_main_v45_apply, val_main_v44_apply, val_main_cst_8_apply,
    val_main_v43_apply, val_main_v42_apply, v41_at]
  exact logistic_spelt _

end Second

/-- THE REFERENCE'S RESULT: two rounds of dense layer and message passing. -/
theorem v57_layers (x0 : (⟨S100000x64, .f32⟩ : BufTy).Contents (Elt Ideal)) (x1 x2 : (⟨S1600000, .i32⟩ : BufTy).Contents (Elt Ideal))
    (x3 : (⟨S64x64, .f32⟩ : BufTy).Contents (Elt Ideal)) (x4 : (⟨S64, .f32⟩ : BufTy).Contents (Elt Ideal))
    (x5 : (⟨S64x16, .f32⟩ : BufTy).Contents (Elt Ideal)) (x6 : (⟨S16, .f32⟩ : BufTy).Contents (Elt Ideal)) :
    val_main_v57 (F := Ideal) x0 x1 x2 x3 x4 x5 x6
      = aggregate16 (F := Ideal) (layer2 (aggregate64 (F := Ideal) (layer1 x0 x3 x4 (degree (F := Ideal) x1)) x1 x2) x5 x6 (degree (F := Ideal) x2)) x1 x2 := by
  rw [v57_eq, v47_eq, v26_eq, v16_eq]

end Cert.ReferenceIdeal.RefValue

end
-- ==== Proof.Bridge.lean ====
/-
  The kernel's result and the reference's result are one function of the seven arguments.

  Both are: count the degrees; first dense layer; pass along the edges; second dense layer; pass along the
  edges.  The counting and the passing are the same host operations on both sides, so they are carried
  as whole functions and never opened.  The dense layers differ only in how the bias and the degrees
  reach them: the kernel reshapes the bias to a one-row matrix and the degrees to a column, the reference
  broadcasts the bias vector along the rows and the degrees' scale along the columns; entry by entry both
  read the bias at the column's number and the degree at the row's number.
-/
import proofs.«107942_j56882546868697_1_alg».proof.Proof.KernelValue
import proofs.«107942_j56882546868697_1_alg».proof.Proof.RefValue
import proofs.«107942_j56882546868697_1_alg».proof.Proof.LibColumn
import Idealize.ShloMosaic.Lib.ValueLayout

noncomputable section

namespace Cert.Bridge

open Idealize.ShloMosaic Idealize.ShloMosaic.ValueIdx Cert.Layers

/-! ## The shared host chains: one function under the two programs' names -/

theorem degree_eq (x : (⟨1, ![1600000]⟩ : Shape).Idx → BitVec 32) :
    Cert.KernelIdeal.Hand.degree (F := Ideal) x = Cert.ReferenceIdeal.RefValue.degree (F := Ideal) x := rfl

theorem aggregate64_eq (h : (⟨2, ![100000, 64]⟩ : Shape).Idx → EReal) (s r : (⟨1, ![1600000]⟩ : Shape).Idx → BitVec 32) :
    Cert.KernelIdeal.Hand.aggregate64 (F := Ideal) h s r = Cert.ReferenceIdeal.RefValue.aggregate64 (F := Ideal) h s r := rfl

theorem aggregate16_eq (z : (⟨2, ![100000, 16]⟩ : Shape).Idx → EReal) (s r : (⟨1, ![1600000]⟩ : Shape).Idx → BitVec 32) :
    Cert.KernelIdeal.Hand.aggregate16 (F := Ideal) z s r = Cert.ReferenceIdeal.RefValue.aggregate16 (F := Ideal) z s r := rfl

/-! ## The dense layers: the bias as a row and the degrees as a column, read back -/

theorem layer1_eq (x : (⟨2, ![100000, 64]⟩ : Shape).Idx → EReal) (w : (⟨2, ![64, 64]⟩ : Shape).Idx → EReal)
    (b : (⟨1, ![64]⟩ : Shape).Idx → EReal) (deg : (⟨1, ![100000]⟩ : Shape).Idx → EReal)
    (h1 : (⟨1, ![64]⟩ : Shape).ShapeCasts ⟨2, ![1, 64]⟩) (h2 : (⟨1, ![100000]⟩ : Shape).ShapeCasts ⟨2, ![100000, 1]⟩) :
    Cert.KernelIdeal.Region0.layer1 x w (shapeCast ⟨2, ![1, 64]⟩ b h1) (shapeCast ⟨2, ![100000, 1]⟩ deg h2)
      = Cert.ReferenceIdeal.RefValue.layer1 x w b deg := by
  funext i
  obtain ⟨r, j, rfl⟩ : ∃ (r : Fin 100000) (j : Fin 64), i = ix2 r j := ⟨i 0, i 1, eq_ix2 i⟩
  show dense1At (fun k => x (ix2 r k)) (fun k => w (ix2 k j)) (shapeCast ⟨2, ![1, 64]⟩ b h1 (ix2 (0 : Fin 1) j))
      (shapeCast ⟨2, ![100000, 1]⟩ deg h2 (ix2 r (0 : Fin 1)))
    = dense1At (fun k => x (ix2 r k)) (fun k => w (ix2 k j)) (b (ix1 j)) (deg (ix1 r))
  rw [shapeCast_a_1a_apply, Cert.LibColumn.shapeCast_a_a1_apply]

theorem layer2_eq (h : (⟨2, ![100000, 64]⟩ : Shape).Idx → EReal) (w : (⟨2, ![64, 16]⟩ : Shape).Idx → EReal)
    (b : (⟨1, ![16]⟩ : Shape).Idx → EReal) (deg : (⟨1, ![100000]⟩ : Shape).Idx → EReal)
    (h1 : (⟨1, ![16]⟩ : Shape).ShapeCasts ⟨2, ![1, 16]⟩) (h2 : (⟨1, ![100000]⟩ : Shape).ShapeCasts ⟨2, ![100000, 1]⟩) :
    Cert.KernelIdeal.Region1.layer2 h w (shapeCast ⟨2, ![1, 16]⟩ b h1) (shapeCast ⟨2, ![100000, 1]⟩ deg h2)
      = Cert.ReferenceIdeal.RefValue.layer2 h w b deg := by
  funext i
  obtain ⟨r, j, rfl⟩ : ∃ (r : Fin 100000) (j : Fin 16), i = ix2 r j := ⟨i 0, i 1, eq_ix2 i⟩
  show dense2At (fun k => h (ix2 r k)) (fun k => w (ix2 k j)) (shapeCast ⟨2, ![1, 16]⟩ b h1 (ix2 (0 : Fin 1) j))
      (shapeCast ⟨2, ![100000, 1]⟩ deg h2 (ix2 r (0 : Fin 1)))
    = dense2At (fun k => h (ix2 r k)) (fun k => w (ix2 k j)) (b (ix1 j)) (deg (ix1 r))
  rw [shapeCast_a_1a_apply, Cert.LibColumn.shapeCast_a_a1_apply]

/-! ## The results -/

/-- The kernel's result array is the reference's last stage, as functions of the seven arguments. -/
theorem result_eq (x0 : (⟨2, ![100000, 64]⟩ : Shape).Idx → EReal) (x1 x2 : (⟨1, ![1600000]⟩ : Shape).Idx → BitVec 32)
    (x3 : (⟨2, ![64, 64]⟩ : Shape).Idx → EReal) (x4 : (⟨1, ![64]⟩ : Shape).Idx → EReal)
    (x5 : (⟨2, ![64, 16]⟩ : Shape).Idx → EReal) (x6 : (⟨1, ![16]⟩ : Shape).Idx → EReal) :
    Cert.KernelIdeal.Result.kernelResult x0 x1 x2 x3 x4 x5 x6
      = Cert.ReferenceIdeal.Read.val_main_v57 (F := Ideal) x0 x1 x2 x3 x4 x5 x6 := by
  rw [Cert.ReferenceIdeal.RefValue.v57_layers]
  unfold Cert.KernelIdeal.Result.kernelResult
  rw [layer1_eq, layer2_eq, degree_eq x1, degree_eq x2, aggregate64_eq, aggregate16_eq]

end Cert.Bridge

end
-- ==== Proof.lean ====
/-
  A two-layer graph convolution on 100000 nodes and 1600000 edges: the kernel against its reference.

  Both programs count each node's degree as a sender and as a receiver, apply a dense layer to the nodes
  (scaled by the senders' degrees), add each node's row to its edges' receivers, apply a second dense
  layer with a leaky rectifier and a logistic output (scaled by the receivers' degrees), and add the rows
  along the edges once more.  The kernel runs the two dense layers as pipelined regions over ten blocks of
  10000 nodes, in bf16 on the way into each matrix product; the reference runs them as host operations
  on whole arrays.  At the ideal values a change of float format is the identity and a matrix product is
  a plain sum, so the two dense layers compute the same entries, and the counting and the passing along
  the edges are the same host operations on both sides.

  The three frames: the kernel's two are the generated frame certificates; the reference's is its
  generated run with the result dropped.  The idealization rewrote nothing, so it has nothing to state.
  The value claim puts the kernel's run (Proof/KernelValue.lean) beside the reference's generated run,
  read stage by stage (Proof/RefValue.lean), and joins them by Proof/Bridge.lean.
-/
import proofs.«107942_j56882546868697_1_alg».proof.Defs
import proofs.«107942_j56882546868697_1_alg».proof.Proof.Gen.Kernel
import proofs.«107942_j56882546868697_1_alg».proof.Proof.Gen.Kernel.Frame
import proofs.«107942_j56882546868697_1_alg».proof.Proof.Gen.KernelIdeal
import proofs.«107942_j56882546868697_1_alg».proof.Proof.Gen.KernelIdeal.Frame
import proofs.«107942_j56882546868697_1_alg».proof.Proof.Gen.ReferenceIdeal
import proofs.«107942_j56882546868697_1_alg».proof.Proof.Gen.Pre_finite_inputs
import proofs.«107942_j56882546868697_1_alg».proof.Proof.Gen.ReferenceIdeal.Run
import proofs.«107942_j56882546868697_1_alg».proof.Proof.Gen.ReferenceIdeal.Read
import proofs.«107942_j56882546868697_1_alg».proof.Proof.KernelValue
import proofs.«107942_j56882546868697_1_alg».proof.Proof.RefValue
import proofs.«107942_j56882546868697_1_alg».proof.Proof.Bridge
import Idealize.ShloMosaic.Adequacy
import Idealize.ShloMosaic.Init

noncomputable section

namespace Cert.Proof

open Idealize.ShloMosaic Idealize.SL.Sem

/-- The word-level kernel terminates, faults nowhere and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments the two idealized programs end with the same result array:
    the kernel's is `kernelResult` of its arguments, the reference's its last stage of the same arguments,
    and those are one function. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v57_eq, (hagree c).1, (hagree c).2.1, (hagree c).2.2.1, (hagree c).2.2.2.1,
    (hagree c).2.2.2.2.1, (hagree c).2.2.2.2.2.1, (hagree c).2.2.2.2.2.2]
  exact (Cert.Bridge.result_eq _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
